-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096x64 : Shape := ⟨4, ![8, 16, 4096, 64]⟩
abbrev S_ : Shape := ⟨0, ![]⟩

class Facts : Prop where
  bcast_S_S8x16x4096x64 : S_.BroadcastsInDim S8x16x4096x64 (![] : Fin 0 → Fin S8x16x4096x64.rank)
  reducesTo_S8x16x4096x64_S_d0_1_2_3 : S8x16x4096x64.ReducesTo [0, 1, 2, 3] S_
  h_S_ : 0 < S_.numel

variable [Facts]

def fn {F : FTy → Type} [FloatOps F] (main_arg0 : FVec F S8x16x4096x64 .f32) (main_arg1 : FVec F S8x16x4096x64 .f32) : IVec S_ 1 :=
  let main_v0 : FVec F S8x16x4096x64 .f32 := Host.absf main_arg0
  let main_cst : FVec F S_ .f32 := constant S_ .f32 0x7F800000#32
  let main_v1 : FVec F S8x16x4096x64 .f32 := broadcastInDim S8x16x4096x64 ![] bcast_S_S8x16x4096x64 main_cst
  let main_v2 : IVec S8x16x4096x64 1 := cmpf .olt main_v0 main_v1
  let main_c : IVec S_ 1 := constantI S_ 1 1#1
  let main_v3 : IVec S_ 1 := (fun x v => Host.reduce IntOp.andi x v reducesTo_S8x16x4096x64_S_d0_1_2_3 h_S_) main_v2 main_c
  let main_v4 : FVec F S8x16x4096x64 .f32 := Host.absf main_arg1
  let main_cst_0 : FVec F S_ .f32 := constant S_ .f32 0x7F800000#32
  let main_v5 : FVec F S8x16x4096x64 .f32 := broadcastInDim S8x16x4096x64 ![] bcast_S_S8x16x4096x64 main_cst_0
  let main_v6 : IVec S8x16x4096x64 1 := cmpf .olt main_v4 main_v5
  let main_c_1 : IVec S_ 1 := constantI S_ 1 1#1
  let main_v7 : IVec S_ 1 := (fun x v => Host.reduce IntOp.andi x v reducesTo_S8x16x4096x64_S_d0_1_2_3 h_S_) main_v6 main_c_1
  let main_v8 : IVec S_ 1 := andi main_v3 main_v7
  main_v8
-- ==== Kernel.lean ====
abbrev S8x16x4096x64 : Shape := ⟨4, ![8, 16, 4096, 64]⟩
abbrev S128x262144 : Shape := ⟨2, ![128, 262144]⟩
abbrev S128x8192 : Shape := ⟨2, ![128, 8192]⟩

abbrev nBuf : Space → Nat
  | .hbm => 6
  | .vmem => 6
  | .smem => 0
  | _ => 0

abbrev bufTy : (tb : Table) → Fin (tcTables nBuf tb) → BufTy
  | .hbm, ⟨0, _⟩ => ⟨S8x16x4096x64, .f32⟩
  | .hbm, ⟨1, _⟩ => ⟨S8x16x4096x64, .f32⟩
  | .hbm, ⟨2, _⟩ => ⟨S128x262144, .f32⟩
  | .hbm, ⟨3, _⟩ => ⟨S128x262144, .f32⟩
  | .hbm, ⟨4, _⟩ => ⟨S128x262144, .f32⟩
  | .hbm, ⟨5, _⟩ => ⟨S8x16x4096x64, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S8x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x16x4096x64_S128x262144 : S8x16x4096x64.ShapeCasts S128x262144
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  shapeCasts_S128x262144_S8x16x4096x64 : S128x262144.ShapeCasts S8x16x4096x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x262144.size a
  hwx0_0 : ∀ i : grid0.Coords, EltTy.bits .f32 = 32 ∨ (Rect.block (s := S128x262144) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x262144.size a
  hwx0_1 : ∀ i : grid0.Coords, EltTy.bits .f32 = 32 ∨ (Rect.block (s := S128x262144) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x262144.size a
  hwx0_2 : ∀ i : grid0.Coords, EltTy.bits .f32 = 32 ∨ (Rect.block (s := S128x262144) S128x8192.size (cc0_transform_2 i) (hinb0_2 i)).WholeWords (EltTy.packing .f32)

variable [Facts₀]

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x4096x64 : Shape := ⟨4, ![8, 16, 4096, 64]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8x16x4096x64, .f32⟩
  | .hbm, ⟨1, _⟩ => ⟨S8x16x4096x64, .f32⟩
  | .hbm, ⟨2, _⟩ => ⟨S8x16x4096x64, .f32⟩
  | .hbm, ⟨3, _⟩ => ⟨S_, .f32⟩
  | .hbm, ⟨4, _⟩ => ⟨S8x16x4096x64, .f32⟩
  | .hbm, ⟨5, _⟩ => ⟨S8x16x4096x64, .f32⟩
  | .hbm, ⟨6, _⟩ => ⟨S8x16x4096x64, .f32⟩
  | .hbm, ⟨7, _⟩ => ⟨S8x16x4096x64, .f32⟩
  | .hbm, ⟨8, _⟩ => ⟨S_, .f32⟩
  | .hbm, ⟨9, _⟩ => ⟨S8x16x4096x64, .f32⟩
  | .hbm, ⟨10, _⟩ => ⟨S8x16x4096x64, .f32⟩
  | .hbm, ⟨11, _⟩ => ⟨S8x16x4096x64, .f32⟩
  | .hbm, ⟨12, _⟩ => ⟨S_, .f32⟩
  | .hbm, ⟨13, _⟩ => ⟨S8x16x4096x64, .f32⟩
  | .hbm, ⟨14, _⟩ => ⟨S8x16x4096x64, .f32⟩
  | .hbm, ⟨15, _⟩ => ⟨S_, .f32⟩
  | .hbm, ⟨16, _⟩ => ⟨S8x16x4096x64, .f32⟩
  | .hbm, ⟨17, _⟩ => ⟨S8x16x4096x64, .f32⟩
  | _, _ => ⟨S8x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S8x16x4096x64 : S_.BroadcastsInDim S8x16x4096x64 (![] : Fin 0 → Fin S8x16x4096x64.rank)

variable [Facts₀]

class Facts : Prop extends Facts₀ where

variable [Facts]
-- ==== Proof.ScaledDistance.lean ====
/-
  The pointwise mathematics of the two programs, on the extended reals.

  Both programs compute, element by element, one minus the decimal logarithm of a scaled distance plus one,
  the decimal logarithm spelt as the natural logarithm times the same single-precision word for 1 / ln 10:

      j(a, b) = 1 - log (dist(a, b) + 1) * c .

  They differ only in how the distance is spelt. With d = a - b,

      one program takes     1024 * |d|              (|d| read as max d (-d)),
      the other             sqrt ((2^20 * d) * d) .

  Since 2^20 = 1024^2, the radicand is (1024 * d)^2 and its square root is 1024 * |d|. This holds for every
  extended real d, the two infinities included: at d = +inf or d = -inf both sides are +inf (the product
  (2^20 * d) * d is +inf in either case, and so is 1024 * max d (-d)). No finiteness hypothesis is therefore
  needed for the law.
-/
import Idealize.ShloMosaic.PureOps.Ideal

noncomputable section

namespace Cert.ScaledDistance

open Idealize.ShloMosaic

/-- The single-precision word 0x44800000 denotes 1024 = 2^10. -/
theorem word_1024 : Ideal.ofBits .f32 0x44800000#32 = ((1024 : ℝ) : EReal) := by
  simp [Ideal.ofBits, Ideal.ieee, -EReal.coe_mul]; norm_num

/-- The single-precision word 0x49800000 denotes 1048576 = 2^20. -/
theorem word_2pow20 : Ideal.ofBits .f32 0x49800000#32 = ((1048576 : ℝ) : EReal) := by
  simp [Ideal.ofBits, Ideal.ieee, -EReal.coe_mul]; norm_num

/-- On the reals: the square root of 2^20 * r * r is 1024 * |r|, because 2^20 * r * r = (1024 * r)^2. -/
theorem real_sqrt_scaled_sq (r : ℝ) : Real.sqrt (1048576 * r * r) = 1024 * max r (-r) := by
  have h : (1048576 : ℝ) * r * r = (1024 * r) ^ 2 := by ring
  rw [h, Real.sqrt_sq_eq_abs, abs_mul, abs_of_pos (by norm_num : (0 : ℝ) < 1024), abs_eq_max_neg]

/-- The law joining the two spellings of the distance, on every extended real d:
    sqrt ((2^20 * d) * d) = 1024 * max d (-d). -/
theorem sqrt_scaled_sq (d : EReal) :
    Ideal.sqrt (((1048576 : ℝ) : EReal) * d * d) = ((1024 : ℝ) : EReal) * max d (-d) := by
  induction d using EReal.rec with
  | bot =>
    -- (2^20 * -inf) * -inf = +inf, whose root is +inf; max (-inf) (+inf) = +inf and 1024 * +inf = +inf
    rw [EReal.coe_mul_bot_of_pos (by norm_num : (0 : ℝ) < 1048576), EReal.bot_mul_bot, Ideal.sqrt_top,
      EReal.neg_bot, max_eq_right bot_le, EReal.coe_mul_top_of_pos (by norm_num : (0 : ℝ) < 1024)]
  | coe r =>
    have hnn : ¬ (1048576 * r * r < 0) := by
      have : (1048576 : ℝ) * r * r = 1048576 * (r * r) := by ring
      rw [this]; exact not_lt.mpr (mul_nonneg (by norm_num) (mul_self_nonneg r))
    -- the coercion of the reals into the extended reals is monotone, so it carries max to max
    have hmax : max (r : EReal) ((-r : ℝ) : EReal) = ((max r (-r) : ℝ) : EReal) :=
      (EReal.coe_strictMono.monotone.map_max).symm
    rw [← EReal.coe_mul, ← EReal.coe_mul, Ideal.sqrt_coe, if_neg hnn, ← EReal.coe_neg, hmax,
      ← EReal.coe_mul, real_sqrt_scaled_sq]
  | top =>
    -- (2^20 * +inf) * +inf = +inf, whose root is +inf; max (+inf) (-inf) = +inf and 1024 * +inf = +inf
    rw [EReal.coe_mul_top_of_pos (by norm_num : (0 : ℝ) < 1048576), EReal.top_mul_top, Ideal.sqrt_top,
      EReal.neg_top, max_eq_left bot_le, EReal.coe_mul_top_of_pos (by norm_num : (0 : ℝ) < 1024)]

/-- The common pointwise function, in the spelling with the absolute value:
    1 - log (1024 * |a - b| + 1) * c, every constant kept as its single-precision word. -/
def j (a b : EReal) : EReal :=
  Ideal.ofBits .f32 0x3F800000#32
    - Ideal.log (Ideal.ofBits .f32 0x44800000#32 * max (a - b) (-(a - b)) + Ideal.ofBits .f32 0x3F800000#32)
      * Ideal.ofBits .f32 0x3EDE5BD9#32

/-- The spelling with the square root is the same function. -/
theorem j_of_sqrt (a b : EReal) :
    Ideal.ofBits .f32 0x3F800000#32
      - Ideal.log (Ideal.sqrt (Ideal.ofBits .f32 0x49800000#32 * (a - b) * (a - b)) + Ideal.ofBits .f32 0x3F800000#32)
        * Ideal.ofBits .f32 0x3EDE5BD9#32
    = j a b := by
  unfold j
  rw [word_2pow20, sqrt_scaled_sq, word_1024]

end Cert.ScaledDistance

end
-- ==== Proof.KernelArray.lean ====
/-
  What the kernel program's result array holds, index by index, on the extended reals.

  The program reshapes each argument from [8, 16, 4096, 64] to [128, 262144] (same elements, same row-major order),
  runs its body over a grid of 32 points, and reshapes the [128, 262144] output back to [8, 16, 4096, 64].

  At grid point t every window holds block (0, t) of its array: all 128 rows, columns 8192 * t to 8192 * t + 8191.
  The three windows move together, so element (r, q) of the output block is computed from element (r, q) of the two
  input blocks, that is from the SAME array index (r, 8192 * t + q) of both reshaped arguments. The body is pointwise:
  difference, absolute value, times 1024, plus one, natural logarithm, times the word for 1 / ln 10, one minus that.
  So what point t writes back is block t of ONE function of the two reshaped arrays, the common pointwise function
  applied index by index. The 32 blocks cover every column (column q lies in block q / 8192), so the whole output
  array is that function. A pointwise function commutes with a reshape, and a reshape there and back is the
  identity, so the program's result at index i of [8, 16, 4096, 64] is the common pointwise function of the two
  arguments' elements at i.
-/
import proofs.«109585_j88210038326190_2_alg».proof.Proof.Gen.KernelIdeal.Frame
import proofs.«109585_j88210038326190_2_alg».proof.Proof.ScaledDistance
import Idealize.ShloMosaic.Lib.Pipeline.Value
import Idealize.ShloMosaic.Lib.StableHlo.Run

set_option maxRecDepth 16384

noncomputable section

namespace Cert.KernelIdeal.ResultArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The body at one grid point -/

/-- The body's loads and its store start at offset (0, 0) of the block. -/
theorem zero_offsets : (![0, 0] : Fin 2 → Nat) = fun _ => 0 := funext fun a => by fin_cases a <;> rfl

/-- The common pointwise function applied index by index to two [128, 262144] arrays. -/
abbrev rows (a0 a1 : S128x262144.Idx → Elt Ideal .f32) : S128x262144.Idx → Elt Ideal .f32 :=
  fun i => Cert.ScaledDistance.j (a0 i) (a1 i)

/-- The value the body stores is the common pointwise function of its two loaded blocks, element by element:
    the two same-shape casts are the identity and every other operation acts on each element by itself. -/
theorem payload_eq (x0 x1 : Vec Ideal S128x8192 .f32) :
    k0_pay1 x0 x1 = fun y => Cert.ScaledDistance.j (x0 y) (x1 y) := by
  unfold k0_pay1
  simp only [shapeCast_self]
  rfl

/-! ## The three windows move together, and the output's blocks cover the array -/

/-- At every grid point the two input windows sit at the output window's block, and that block is (0, t'):
    row block 0 and a column block below 32. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every column block 0 … 31 (with row block 0) is some grid point's output block. -/
theorem index_onto : ∀ q : Fin 32, ∃ t : Fin cfg0.N, win0_2.index t = ![0, q.val] :=
  (by decide +kernel : ∀ q : Fin 32, ∃ t : Fin grid0.N, win0_2.index t = ![0, q.val])

/-- What grid point t writes back is block t of the common pointwise function of the two reshaped arrays. -/
theorem flushed_eq (c : Dev nD) (t : Fin cfg0.N) :
    (dats m 0 c).flushed 2 t = ((cfg0.win 2).blk t).view.read (Elt Ideal) (rows (V m c main_v0) (V m c main_v1)) := by
  show (cfg0.win 2).cut (grid0.coords t) ((dats m 0 c).after 2 t) = _
  rw [after0_2]
  unfold out0_2
  rw [View.canon_unit_zero zero_offsets]
  simp only [View.ld_unit_zero (S := S128x8192) zero_offsets]
  rw [payload_eq]
  obtain ⟨e0, e1, e2, e3⟩ := index_facts t
  funext y
  show Cert.ScaledDistance.j (V m c main_v0 (((cfg0.win 0).blk t).view.emb y)) (V m c main_v1 (((cfg0.win 1).blk t).view.emb y))
    = Cert.ScaledDistance.j (V m c main_v0 (((cfg0.win 2).blk t).view.emb y)) (V m c main_v1 (((cfg0.win 2).blk t).view.emb y))
  -- an element of a block sits at (block index * block size + position inside the block) on each axis
  have h0 : ((cfg0.win 0).blk t).view.emb y = ((cfg0.win 2).blk t).view.emb y := by
    funext a; apply Fin.ext
    match a with
    | ⟨0, _⟩ => show win0_0.index t (0 : Fin 2) * 128 + 1 * (y 0).val = win0_2.index t (0 : Fin 2) * 128 + 1 * (y 0).val; omega
    | ⟨1, _⟩ => show win0_0.index t (1 : Fin 2) * 8192 + 1 * (y 1).val = win0_2.index t (1 : Fin 2) * 8192 + 1 * (y 1).val; omega
  have h1 : ((cfg0.win 1).blk t).view.emb y = ((cfg0.win 2).blk t).view.emb y := by
    funext a; apply Fin.ext
    match a with
    | ⟨0, _⟩ => show win0_1.index t (0 : Fin 2) * 128 + 1 * (y 0).val = win0_2.index t (0 : Fin 2) * 128 + 1 * (y 0).val; omega
    | ⟨1, _⟩ => show win0_1.index t (1 : Fin 2) * 8192 + 1 * (y 1).val = win0_2.index t (1 : Fin 2) * 8192 + 1 * (y 1).val; omega
  rw [h0, h1]

/-- An index of the array lies in point t's block iff on each axis its coordinate lies in the block's range. -/
theorem mem_block (t : Fin cfg0.N) (i : S128x262144.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v2).slice (win0_2.rect t)).set ↔ _
  rw [View.set_slice_whole, Rect.mem_set_unit]
  exact Iff.rfl

/-- Every index (r, q) of the output array is covered: by the point whose column block is q / 8192. -/
theorem covered (i : S128x262144.Idx) :
    ∃ t : Fin cfg0.N, (cfg0.win 2).flush t = true ∧ i ∈ ((cfg0.win 2).blk t).view.set := by
  have hi0 : (i 0).val < 128 := (i 0).isLt
  have hi1 : (i 1).val < 262144 := (i 1).isLt
  obtain ⟨t, ht⟩ := index_onto ⟨(i 1).val / 8192, by omega⟩
  have q0 : win0_2.index t (0 : Fin 2) = 0 := congrFun ht 0
  have q1 : win0_2.index t (1 : Fin 2) = (i 1).val / 8192 := congrFun ht 1
  refine ⟨t, flush0_2 t, ?_⟩
  rw [mem_block]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 8192 ≤ (i 1).val ∧ (i 1).val < win0_2.index t (1 : Fin 2) * 8192 + 8192; omega

/-- The output array after the run is the common pointwise function of the two reshaped arrays. -/
theorem array_eq (c : Dev nD) : (dats m 0 c).arrAt 2 cfg0.N = rows (V m c main_v0) (V m c main_v1) :=
  (dats m 0 c).arrAt_eq_of_cover 2 (rows (V m c main_v0) (V m c main_v1)) (fun t _ => flushed_eq m c t) covered

/-! ## The reshapes before and after the region -/

/-- The first input array, as the region finds it, is the first argument reshaped. -/
theorem entry_v0 (c : Dev nD) : (V m c main_v0 : S128x262144.Idx → Elt Ideal .f32)
    = shapeCast S128x262144 (m ((c : Thread nD τ).loc main_arg0)) shapeCasts_S8x16x4096x64_S128x262144 := by
  show StableHlo.after hostOps0 (fun b => m (c, b)) (Proc.devRef .tc main_v0) = _
  after_results
  rfl

/-- The second input array, as the region finds it, is the second argument reshaped. -/
theorem entry_v1 (c : Dev nD) : (V m c main_v1 : S128x262144.Idx → Elt Ideal .f32)
    = shapeCast S128x262144 (m ((c : Thread nD τ).loc main_arg1)) shapeCasts_S8x16x4096x64_S128x262144 := by
  show StableHlo.after hostOps0 (fun b => m (c, b)) (Proc.devRef .tc main_v1) = _
  after_results
  rfl

/-- A pointwise function of two arrays reshaped, then reshaped back, is the pointwise function of the arrays:
    a reshape only renames indices, and there and back it renames each index to itself. -/
theorem rows_roundtrip (x y : S8x16x4096x64.Idx → Elt Ideal .f32) (h : S8x16x4096x64.ShapeCasts S128x262144)
    (h' : S128x262144.ShapeCasts S8x16x4096x64) :
    shapeCast S8x16x4096x64 (rows (shapeCast S128x262144 x h) (shapeCast S128x262144 y h)) h'
      = fun i => Cert.ScaledDistance.j (x i) (y i) := by
  show (fun k => Cert.ScaledDistance.j (shapeCast S8x16x4096x64 (shapeCast S128x262144 x h) h' k)
    (shapeCast S8x16x4096x64 (shapeCast S128x262144 y h) h' k)) = _
  rw [shapeCast_shapeCast, shapeCast_shapeCast]

/-- The program's result buffer after the run: the output array reshaped back, hence the common pointwise function of
    the two arguments as launched, index by index. -/
theorem result_eq (c : Dev nD) :
    Pipeline.afterTail₀ cfgs (dats m) 0 (V0 m) [hostOps1] c main_v3
      = fun i => Cert.ScaledDistance.j (m ((c : Thread nD τ).loc main_arg0) i) (m ((c : Thread nD τ).loc main_arg1) i) := by
  unfold Pipeline.afterTail₀
  show StableHlo.after hostOps1 _ (Proc.devRef .tc main_v3) = _
  after_results
  rw [(Pipeline.withArrays_arr spec0 launch0.win.arr_inj c _ _ 2).trans (array_eq m c), entry_v0, entry_v1]
  exact rows_roundtrip _ _ _ _

/-! ## The run -/

/-- Every weakly fair execution of the program terminates with the result buffer at the common pointwise function of
    the arguments and the arguments unchanged. -/
theorem run : θ_run defs (onTc (τ := τ) (main (F := Ideal))) ⟨m, fun _ => 0, ρ⟩ fun r => ∀ c : Dev nD,
      r.2.mem ((c.tc : Thread nD τ).loc main_v3)
        = (fun i => Cert.ScaledDistance.j (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ResultArray

end
-- ==== Proof.ReferenceArray.lean ====
/-
  What the reference program's result array holds, index by index, on the extended reals.

  The reference is sixteen whole-array operations: the difference d = x - y, the product (2^20 * d) * d, its square
  root, plus one, the natural logarithm, times the word for 1 / ln 10, and one minus that. Every operation acts on
  each element by itself (the constants are broadcast scalars), so the result at an index i depends on x i and y i
  only, and it is the spelling with the square root of the common pointwise function. The law of ScaledDistance
  turns it into the spelling with the absolute value.
-/
import proofs.«109585_j88210038326190_2_alg».proof.Proof.Gen.ReferenceIdeal.Read
import proofs.«109585_j88210038326190_2_alg».proof.Proof.ScaledDistance

noncomputable section

namespace Cert.ReferenceIdeal.ResultArray

open Cert.ReferenceIdeal Cert.ReferenceIdeal.Read Idealize.ShloMosaic

/-- The reference's last stage, read at an index through its sixteen operations one by one, is the common pointwise
    function of the two arguments' elements at that index. -/
theorem result_eq (x0 x1 : (⟨S8x16x4096x64, .f32⟩ : BufTy).Contents (Elt Ideal)) :
    val_main_v11 (F := Ideal) x0 x1 = fun i => Cert.ScaledDistance.j (x0 i) (x1 i) := by
  funext i
  rw [val_main_v11_apply, val_main_v10_apply, val_main_cst_2_apply, val_main_v9_apply, val_main_v8_apply,
    val_main_cst_1_apply, val_main_v7_apply, val_main_v6_apply, val_main_v5_apply, val_main_cst_0_apply,
    val_main_v4_apply, val_main_v3_apply, val_main_v2_apply, val_main_v1_apply, val_main_cst_apply,
    val_main_v0_apply]
  exact Cert.ScaledDistance.j_of_sqrt (x0 i) (x1 i)

end Cert.ReferenceIdeal.ResultArray

end
-- ==== Proof.lean ====
/-
  Two programs over x, y : f32[8, 16, 4096, 64] are equal as functions into the extended reals.

  Both compute, element by element,   1 - log (dist + 1) * c   with c the same single-precision word for 1 / ln 10.
  One takes dist = 1024 * |x - y|, inside a body run block by block over the arguments reshaped to [128, 262144];
  the other takes dist = sqrt ((2^20 * (x - y)) * (x - y)) on the whole arrays. Since 2^20 = 1024^2 the radicand is
  (1024 * (x - y))^2, whose square root is 1024 * |x - y|; the identity holds at every extended real, the infinities
  included (Proof/ScaledDistance.lean), so the precondition that the inputs are finite is never opened.

  The first program's result array is the common pointwise function of the arguments (Proof/KernelArray.lean: every
  grid point writes back one block of it, the blocks cover the array, and the reshapes before and after cancel);
  so is the second's (Proof/ReferenceArray.lean: its sixteen operations read at an index). Each program runs to
  completion leaving its arguments unchanged; nothing was rewritten in the first program to read it on the extended
  reals, so that conjunct is trivially true.
-/
import proofs.«109585_j88210038326190_2_alg».proof.Defs
import proofs.«109585_j88210038326190_2_alg».proof.Proof.Gen.Kernel
import proofs.«109585_j88210038326190_2_alg».proof.Proof.Gen.Kernel.Skeleton
import proofs.«109585_j88210038326190_2_alg».proof.Proof.Gen.Kernel.Launch
import proofs.«109585_j88210038326190_2_alg».proof.Proof.Gen.Kernel.Points
import proofs.«109585_j88210038326190_2_alg».proof.Proof.Gen.Kernel.Frame
import proofs.«109585_j88210038326190_2_alg».proof.Proof.Gen.KernelIdeal
import proofs.«109585_j88210038326190_2_alg».proof.Proof.Gen.KernelIdeal.Skeleton
import proofs.«109585_j88210038326190_2_alg».proof.Proof.Gen.KernelIdeal.Launch
import proofs.«109585_j88210038326190_2_alg».proof.Proof.Gen.KernelIdeal.Points
import proofs.«109585_j88210038326190_2_alg».proof.Proof.Gen.KernelIdeal.Frame
import proofs.«109585_j88210038326190_2_alg».proof.Proof.Gen.ReferenceIdeal
import proofs.«109585_j88210038326190_2_alg».proof.Proof.Gen.ReferenceIdeal.Run
import proofs.«109585_j88210038326190_2_alg».proof.Proof.Gen.ReferenceIdeal.Read
import proofs.«109585_j88210038326190_2_alg».proof.Proof.Gen.Pre_finite_inputs
import proofs.«109585_j88210038326190_2_alg».proof.Proof.ScaledDistance
import proofs.«109585_j88210038326190_2_alg».proof.Proof.KernelArray
import proofs.«109585_j88210038326190_2_alg».proof.Proof.ReferenceArray
import Idealize.ShloMosaic.Adequacy
import Idealize.ShloMosaic.Init

noncomputable section

namespace Cert.Proof

open Idealize.ShloMosaic Idealize.ShloMosaic.TcCoe Idealize.SL.Sem

/-- The program as printed runs to completion and leaves its arguments unchanged. -/
theorem frame_kernel : Cert.frame_Kernel := fun m ρ _ => Cert.Kernel.Gen.frame m ρ

/-- So does the same program read on the extended reals. -/
theorem frame_kernel_ideal : Cert.frame_KernelIdeal := fun m ρ _ => Cert.KernelIdeal.Gen.frame m ρ

/-- So does the whole-array program: its run states the result and the arguments; keep the arguments. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on x and y both programs end with the same result array: the common pointwise function
    1 - log (1024 * |x - y| + 1) * c of the arguments, index by index. -/
theorem algebraic : Cert.algebraic_KernelIdeal_ReferenceIdeal := by
  intro m ρ m' ρ' _ hagree
  refine ⟨_, Cert.KernelIdeal.ResultArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.ResultArray.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
